-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S8000000x12 : Shape := ⟨2, ![8000000, 12]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S8000000x12 : S_.BroadcastsInDim S8000000x12 (![] : Fin 0 → Fin S8000000x12.rank)
  reducesTo_S8000000x12_S_d0_1 : S8000000x12.ReducesTo [0, 1] S_

variable [Facts]

def fn {F : FTy → Type} [FloatOps F] (main_arg0 : FVec F S1 .f32) (main_arg1 : FVec F S8000000x12 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S8000000x12 .f32 := Host.absf main_arg1
  let main_cst_0 : FVec F S_ .f32 := constant S_ .f32 0x7F800000#32
  let main_v5 : FVec F S8000000x12 .f32 := broadcastInDim S8000000x12 ![] bcast_S_S8000000x12 main_cst_0
  let main_v6 : IVec S8000000x12 1 := cmpf .olt main_v4 main_v5
  let main_c_1 : IVec S_ 1 := constantI S_ 1 1#1
  let main_v7 : IVec S_ 1 := (fun x v => Host.reduce IntOp.andi x v reducesTo_S8000000x12_S_d0_1 h_S_) main_v6 main_c_1
  let main_v8 : IVec S_ 1 := andi main_v3 main_v7
  main_v8
-- ==== Kernel.lean ====
abbrev S1 : Shape := ⟨1, ![1]⟩
abbrev S8000000x12 : Shape := ⟨2, ![8000000, 12]⟩
abbrev S16000x12 : Shape := ⟨2, ![16000, 12]⟩
abbrev S16000x1 : Shape := ⟨2, ![16000, 1]⟩

abbrev nBuf : Space → Nat
  | .hbm => 3
  | .vmem => 4
  | .smem => 0
  | _ => 0

abbrev bufTy : (tb : Table) → Fin (tcTables nBuf tb) → BufTy
  | .hbm, ⟨0, _⟩ => ⟨S1, .f32⟩
  | .hbm, ⟨1, _⟩ => ⟨S8000000x12, .f32⟩
  | .hbm, ⟨2, _⟩ => ⟨S8000000x12, .f32⟩
  | .local _ .vmem, ⟨0, _⟩ => ⟨S16000x12, .f32⟩
  | .local _ .vmem, ⟨1, _⟩ => ⟨S16000x12, .f32⟩
  | .local _ .vmem, ⟨2, _⟩ => ⟨S16000x12, .f32⟩
  | .local _ .vmem, ⟨3, _⟩ => ⟨S16000x12, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16000x12_S16000x12_0_0 : ∀ a, (![0, 0] : Fin 2 → Nat) a + S16000x12.size a ≤ S16000x12.size a
  h_S16000x12 : 0 < S16000x12.numel
  slices_S16000x12_o0_0_S16000x1 : S16000x12.Slices ![0, 0] S16000x1
  slices_S16000x12_o0_1_S16000x1 : S16000x12.Slices ![0, 1] S16000x1
  slices_S16000x12_o0_2_S16000x1 : S16000x12.Slices ![0, 2] S16000x1
  slices_S16000x12_o0_3_S16000x1 : S16000x12.Slices ![0, 3] S16000x1
  slices_S16000x12_o0_4_S16000x1 : S16000x12.Slices ![0, 4] S16000x1
  slices_S16000x12_o0_5_S16000x1 : S16000x12.Slices ![0, 5] S16000x1
  slices_S16000x12_o0_6_S16000x1 : S16000x12.Slices ![0, 6] S16000x1
  slices_S16000x12_o0_7_S16000x1 : S16000x12.Slices ![0, 7] S16000x1
  slices_S16000x12_o0_8_S16000x1 : S16000x12.Slices ![0, 8] S16000x1
  slices_S16000x12_o0_9_S16000x1 : S16000x12.Slices ![0, 9] S16000x1
  slices_S16000x12_o0_10_S16000x1 : S16000x12.Slices ![0, 10] S16000x1
  slices_S16000x12_o0_11_S16000x1 : S16000x12.Slices ![0, 11] S16000x1
  concatenates_S16000x1_S16000x1_S16000x1_S16000x1_S16000x1_S16000x1_S16000x1_S16000x1_S16000x1_S16000x1_S16000x1_S16000x1_S16000x12_d1 : Shape.Concatenates [S16000x1, S16000x1, S16000x1, S16000x1, S16000x1, S16000x1, S16000x1, S16000x1, S16000x1, S16000x1, S16000x1, S16000x1] S16000x12 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x12.size a ≤ S8000000x12.size a
  hwx0_0 : ∀ i : grid0.Coords, EltTy.bits .f32 = 32 ∨ (Rect.block (s := S8000000x12) S16000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x12.size a ≤ S8000000x12.size a
  hwx0_1 : ∀ i : grid0.Coords, EltTy.bits .f32 = 32 ∨ (Rect.block (s := S8000000x12) S16000x12.size (cc0_transform_1 i) (hinb0_1 i)).WholeWords (EltTy.packing .f32)

variable [Facts₀]

abbrev win0_0 : Pipeline.Window sig grid0 :=
  Pipeline.Window.ofSpec (Memref.whole main_arg1) S16000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16000x12.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1 : Shape := ⟨1, ![1]⟩
abbrev S8000000x12 : Shape := ⟨2, ![8000000, 12]⟩
abbrev S8000000x1 : Shape := ⟨2, ![8000000, 1]⟩
abbrev S8000000 : Shape := ⟨1, ![8000000]⟩
abbrev S_ : Shape := ⟨0, ![]⟩
abbrev S8000000x3 : Shape := ⟨2, ![8000000, 3]⟩
abbrev S8000000x1x3 : Shape := ⟨3, ![8000000, 1, 3]⟩
abbrev S8000000x3x3 : Shape := ⟨3, ![8000000, 3, 3]⟩
abbrev S8000000x9 : Shape := ⟨2, ![8000000, 9]⟩

abbrev nBuf : Space → Nat
  | .hbm => 66
  | .vmem => 0
  | .smem => 0
  | _ => 0

abbrev bufTy : (tb : Table) → Fin (tcTables nBuf tb) → BufTy
  | .hbm, ⟨0, _⟩ => ⟨S1, .f32⟩
  | .hbm, ⟨1, _⟩ => ⟨S8000000x12, .f32⟩
  | .hbm, ⟨2, _⟩ => ⟨S8000000x1, .f32⟩
  | .hbm, ⟨3, _⟩ => ⟨S8000000, .f32⟩
  | .hbm, ⟨4, _⟩ => ⟨S8000000x1, .f32⟩
  | .hbm, ⟨5, _⟩ => ⟨S8000000, .f32⟩
  | .hbm, ⟨6, _⟩ => ⟨S8000000x1, .f32⟩
  | .hbm, ⟨7, _⟩ => ⟨S8000000, .f32⟩
  | .hbm, ⟨8, _⟩ => ⟨S8000000, .f32⟩
  | .hbm, ⟨9, _⟩ => ⟨S_, .f32⟩
  | .hbm, ⟨10, _⟩ => ⟨S8000000, .f32⟩
  | .hbm, ⟨11, _⟩ => ⟨S8000000, .f32⟩
  | .hbm, ⟨12, _⟩ => ⟨S_, .f32⟩
  | .hbm, ⟨13, _⟩ => ⟨S8000000, .f32⟩
  | .hbm, ⟨14, _⟩ => ⟨S8000000, .f32⟩
  | .hbm, ⟨15, _⟩ => ⟨S8000000, .f32⟩
  | .hbm, ⟨16, _⟩ => ⟨S8000000, .f32⟩
  | .hbm, ⟨17, _⟩ => ⟨S8000000, .f32⟩
  | .hbm, ⟨18, _⟩ => ⟨S8000000, .f32⟩
  | .hbm, ⟨19, _⟩ => ⟨S_, .f32⟩
  | .hbm, ⟨20, _⟩ => ⟨S8000000, .f32⟩
  | .hbm, ⟨21, _⟩ => ⟨S8000000, .f32⟩
  | .hbm, ⟨22, _⟩ => ⟨S8000000, .f32⟩
  | .hbm, ⟨23, _⟩ => ⟨S8000000x1, .f32⟩
  | .hbm, ⟨24, _⟩ => ⟨S8000000x1, .f32⟩
  | .hbm, ⟨25, _⟩ => ⟨S8000000x1, .f32⟩
  | .hbm, ⟨26, _⟩ => ⟨S8000000x3, .f32⟩
  | .hbm, ⟨27, _⟩ => ⟨S_, .f32⟩
  | .hbm, ⟨28, _⟩ => ⟨S8000000, .f32⟩
  | .hbm, ⟨29, _⟩ => ⟨S_, .f32⟩
  | .hbm, ⟨30, _⟩ => ⟨S8000000, .f32⟩
  | .hbm, ⟨31, _⟩ => ⟨S_, .f32⟩
  | .hbm, ⟨32, _⟩ => ⟨S8000000, .f32⟩
  | .hbm, ⟨33, _⟩ => ⟨S8000000, .f32⟩
  | .hbm, ⟨34, _⟩ => ⟨S_, .f32⟩
  | .hbm, ⟨35, _⟩ => ⟨S8000000, .f32⟩
  | .hbm, ⟨36, _⟩ => ⟨S8000000, .f32⟩
  | .hbm, ⟨37, _⟩ => ⟨S8000000x1, .f32⟩
  | .hbm, ⟨38, _⟩ => ⟨S8000000x1, .f32⟩
  | .hbm, ⟨39, _⟩ => ⟨S8000000x1, .f32⟩
  | .hbm, ⟨40, _⟩ => ⟨S8000000x3, .f32⟩
  | .hbm, ⟨41, _⟩ => ⟨S_, .f32⟩
  | .hbm, ⟨42, _⟩ => ⟨S8000000, .f32⟩
  | .hbm, ⟨43, _⟩ => ⟨S8000000, .f32⟩
  | .hbm, ⟨44, _⟩ => ⟨S8000000, .f32⟩
  | .hbm, ⟨45, _⟩ => ⟨S8000000, .f32⟩
  | .hbm, ⟨46, _⟩ => ⟨S8000000x1, .f32⟩
  | .hbm, ⟨47, _⟩ => ⟨S8000000x1, .f32⟩
  | .hbm, ⟨48, _⟩ => ⟨S8000000x1, .f32⟩
  | .hbm, ⟨49, _⟩ => ⟨S8000000x3, .f32⟩
  | .hbm, ⟨50, _⟩ => ⟨S_, .f32⟩
  | .hbm, ⟨51, _⟩ => ⟨S8000000, .f32⟩
  | .hbm, ⟨52, _⟩ => ⟨S8000000, .f32⟩
  | .hbm, ⟨53, _⟩ => ⟨S8000000x1, .f32⟩
  | .hbm, ⟨54, _⟩ => ⟨S8000000x1, .f32⟩
  | .hbm, ⟨55, _⟩ => ⟨S8000000x1, .f32⟩
  | .hbm, ⟨56, _⟩ => ⟨S8000000x3, .f32⟩
  | .hbm, ⟨57, _⟩ => ⟨S8000000x1x3, .f32⟩
  | .hbm, ⟨58, _⟩ => ⟨S8000000x1x3, .f32⟩
  | .hbm, ⟨59, _⟩ => ⟨S8000000x1x3, .f32⟩
  | .hbm, ⟨60, _⟩ => ⟨S8000000x3x3, .f32⟩
  | .hbm, ⟨61, _⟩ => ⟨S8000000x9, .f32⟩
  | .hbm, ⟨62, _⟩ => ⟨S8000000x3x3, .f32⟩
  | .hbm, ⟨63, _⟩ => ⟨S8000000x3x3, .f32⟩
  | .hbm, ⟨64, _⟩ => ⟨S8000000x9, .f32⟩
  | .hbm, ⟨65, _⟩ => ⟨S8000000x12, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]

class Facts₀ : Prop where
  slices_S8000000x12_S8000000x1_0_0 : S8000000x12.Slices ![0, 0] S8000000x1
  shapeCasts_S8000000x1_S8000000 : S8000000x1.ShapeCasts S8000000
  slices_S8000000x12_S8000000x1_0_1 : S8000000x12.Slices ![0, 1] S8000000x1
  slices_S8000000x12_S8000000x1_0_2 : S8000000x12.Slices ![0, 2] S8000000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  concatenates_S8000000x1_S8000000x1_S8000000x1_S8000000x3_d1 : Shape.Concatenates [S8000000x1, S8000000x1, S8000000x1] S8000000x3 1
  bcast_S8000000x3_S8000000x1x3_0_2 : S8000000x3.BroadcastsInDim S8000000x1x3 (![0, 2] : Fin 2 → Fin S8000000x1x3.rank)
  concatenates_S8000000x1x3_S8000000x1x3_S8000000x1x3_S8000000x3x3_d1 : Shape.Concatenates [S8000000x1x3, S8000000x1x3, S8000000x1x3] S8000000x3x3 1
  slices_S8000000x12_S8000000x9_0_3 : S8000000x12.Slices ![0, 3] S8000000x9
  shapeCasts_S8000000x9_S8000000x3x3 : S8000000x9.ShapeCasts S8000000x3x3
  shapeCasts_S8000000x3x3_S8000000x9 : S8000000x3x3.ShapeCasts S8000000x9
  concatenates_S8000000x3_S8000000x9_S8000000x12_d1 : Shape.Concatenates [S8000000x3, S8000000x9] S8000000x12 1
  dot_S8000000x3x3_S8000000x3x3_S8000000x3x3_2_1_1_2_0_0_wf : DotDims.WF S8000000x3x3 S8000000x3x3 S8000000x3x3 [2] [1] [1] [2] [0] [0]

variable [Facts₀]

def dot_S8000000x3x3_S8000000x3x3_S8000000x3x3_2_1_1_2_0_0 : DotDims S8000000x3x3 S8000000x3x3 S8000000x3x3 where
  lhsContracting := [2]
  rhsContracting := [1]
  lhsNonContracting := [1]
  rhsNonContracting := [2]
  lhsBatch := [0]
  rhsBatch := [0]
  wf := dot_S8000000x3x3_S8000000x3x3_S8000000x3x3_2_1_1_2_0_0_wf

class Facts : Prop extends Facts₀ where

variable [Facts]
-- ==== Proof.Field.lean ====
/-
  The Lorenz system with its variational equation, one row at a time, over the extended reals.

  A row is twelve numbers `x = (x₁, x₂, x₃, Φ₀₀, Φ₀₁, Φ₀₂, Φ₁₀, …, Φ₂₂)`: a point of the Lorenz system and a 3×3 matrix
  `Φ` in row-major order.  The field sends it to `(ẋ₁, ẋ₂, ẋ₃, Φ̇)` with
      ẋ₁ = σ (x₂ − x₁),   ẋ₂ = ρ x₁ − x₂ − x₁ x₃,   ẋ₃ = x₁ x₂ − β x₃,   Φ̇ = A Φ,
  where `A` is the Jacobian of the Lorenz right-hand side at `x`:
      A = [ −σ     σ    0  ]
          [ ρ−x₃  −1   −x₁ ]
          [ x₂     x₁  −β  ].
  `field` writes the nine entries of `A Φ` out with the zero entry dropped, `−1 · y` as a subtraction and
  `(−c) · y` as the subtraction of `c · y`; `fieldByJacobian` keeps the matrix product as a sum over the middle
  index with every entry of `A` spelt as a product with one.  The two agree on ALL extended reals: the laws used are
  commutativity and associativity of the sum, `0 · y = 0`, `1 · y = y`, `(−a) · y = −(a · y)` and `a − b = a + (−b)`,
  none of which needs a finite operand.  The constants are kept as the binary values their 32-bit patterns denote.
-/
import Idealize.ShloMosaic.PureOps.Ideal
import Idealize.ShloMosaic.PureOps.Ideal.Laws
import Idealize.ShloMosaic.Lib.IdealHost
import Idealize.ShloMosaic.Lib.ValueIdx

noncomputable section

namespace Cert.Lorenz

open Idealize.ShloMosaic Idealize.ShloMosaic.ValueIdx

/-- σ = 10. -/
abbrev sigma : EReal := Ideal.ofBits .f32 0x41200000#32
/-- −σ = −10, a pattern of its own. -/
abbrev negSigma : EReal := Ideal.ofBits .f32 0xC1200000#32
/-- ρ = 28. -/
abbrev rho : EReal := Ideal.ofBits .f32 0x41E00000#32
/-- β, the 32-bit value nearest 8/3. -/
abbrev beta : EReal := Ideal.ofBits .f32 0x402AAAAB#32
/-- −β, the same pattern with the sign bit set. -/
abbrev negBeta : EReal := Ideal.ofBits .f32 0xC02AAAAB#32
/-- 1. -/
abbrev one : EReal := Ideal.ofBits .f32 0x3F800000#32
/-- 0. -/
abbrev zero : EReal := Ideal.ofBits .f32 0x00000000#32

/-- Setting the sign bit of β's pattern negates the number it denotes. -/
theorem negBeta_eq : negBeta = -beta := by
  simp [negBeta, beta, Ideal.ofBits, Ideal.ieee, -EReal.coe_mul, -EReal.coe_neg]
  norm_num

/-- The field at a row, entry by entry, the products of `A Φ` written out. -/
def field (x : Fin 12 → EReal) : Fin 12 → EReal
  | ⟨0, _⟩ => sigma * (x 1 - x 0)
  | ⟨1, _⟩ => rho * x 0 - x 1 - x 0 * x 2
  | ⟨2, _⟩ => x 0 * x 1 - beta * x 2
  | ⟨3, _⟩ => negSigma * x 3 + sigma * x 6
  | ⟨4, _⟩ => negSigma * x 4 + sigma * x 7
  | ⟨5, _⟩ => negSigma * x 5 + sigma * x 8
  | ⟨6, _⟩ => (rho - x 2) * x 3 - x 6 - x 0 * x 9
  | ⟨7, _⟩ => (rho - x 2) * x 4 - x 7 - x 0 * x 10
  | ⟨8, _⟩ => (rho - x 2) * x 5 - x 8 - x 0 * x 11
  | ⟨9, _⟩ => x 1 * x 3 + x 0 * x 6 - beta * x 9
  | ⟨10, _⟩ => x 1 * x 4 + x 0 * x 7 - beta * x 10
  | ⟨11, _⟩ => x 1 * x 5 + x 0 * x 8 - beta * x 11
  | ⟨_ + 12, h⟩ => absurd h (Nat.not_lt.2 (Nat.le_add_left _ _))

/-- The Jacobian of the Lorenz right-hand side at a row, every constant entry a product with one. -/
def jacobian (x : Fin 12 → EReal) : Fin 3 → Fin 3 → EReal
  | ⟨0, _⟩, ⟨0, _⟩ => negSigma * one
  | ⟨0, _⟩, ⟨1, _⟩ => sigma * one
  | ⟨0, _⟩, ⟨2, _⟩ => zero
  | ⟨1, _⟩, ⟨0, _⟩ => rho - x 2
  | ⟨1, _⟩, ⟨1, _⟩ => -one
  | ⟨1, _⟩, ⟨2, _⟩ => -(x 0)
  | ⟨2, _⟩, ⟨0, _⟩ => x 1
  | ⟨2, _⟩, ⟨1, _⟩ => x 0
  | ⟨2, _⟩, ⟨2, _⟩ => negBeta * one
  | ⟨_ + 3, h⟩, _ => absurd h (Nat.not_lt.2 (Nat.le_add_left _ _))
  | _, ⟨_ + 3, h⟩ => absurd h (Nat.not_lt.2 (Nat.le_add_left _ _))

/-- Entry `(j, k)` of `Φ` in a row: position `3 + 3 j + k`. -/
def phi (x : Fin 12 → EReal) (j k : Fin 3) : EReal :=
  x ⟨3 + (3 * j.val + k.val), by have := j.isLt; have := k.isLt; omega⟩

/-- The first three entries of the field. -/
def velocity (x : Fin 12 → EReal) : Fin 3 → EReal
  | ⟨0, _⟩ => sigma * (x 1 - x 0)
  | ⟨1, _⟩ => rho * x 0 - x 1 - x 0 * x 2
  | ⟨2, _⟩ => x 0 * x 1 - beta * x 2
  | ⟨_ + 3, h⟩ => absurd h (Nat.not_lt.2 (Nat.le_add_left _ _))

/-- Entry `(i, k)` of the matrix product `A Φ`, as the sum over the middle index. -/
def jacobianPhi (x : Fin 12 → EReal) (i k : Fin 3) : EReal :=
  ∑ j : Fin 3, jacobian x i j * phi x j k

/-- `A Φ` entry by entry is the written-out field: the three rows of `A` in turn. -/
theorem jacobianPhi_eq (x : Fin 12 → EReal) (i k : Fin 3) :
    jacobianPhi x i k = field x ⟨3 + (3 * i.val + k.val), by have := i.isLt; have := k.isLt; omega⟩ := by
  have h1 : one = 1 := Ideal.ofBits_one_f32
  have h0 : zero = 0 := Ideal.ofBits_zero_f32
  unfold jacobianPhi
  rw [Fin.sum_univ_three]
  match i, k with
  | ⟨0, _⟩, ⟨0, _⟩ => simp only [jacobian, phi, field, h1, h0, mul_one, zero_mul, add_zero]; rfl
  | ⟨0, _⟩, ⟨1, _⟩ => simp only [jacobian, phi, field, h1, h0, mul_one, zero_mul, add_zero]; rfl
  | ⟨0, _⟩, ⟨2, _⟩ => simp only [jacobian, phi, field, h1, h0, mul_one, zero_mul, add_zero]; rfl
  | ⟨1, _⟩, ⟨0, _⟩ => simp only [jacobian, phi, field, h1, neg_mul, one_mul, sub_eq_add_neg]; rfl
  | ⟨1, _⟩, ⟨1, _⟩ => simp only [jacobian, phi, field, h1, neg_mul, one_mul, sub_eq_add_neg]; rfl
  | ⟨1, _⟩, ⟨2, _⟩ => simp only [jacobian, phi, field, h1, neg_mul, one_mul, sub_eq_add_neg]; rfl
  | ⟨2, _⟩, ⟨0, _⟩ => simp only [jacobian, phi, field, h1, negBeta_eq, mul_one, neg_mul, sub_eq_add_neg]; rfl
  | ⟨2, _⟩, ⟨1, _⟩ => simp only [jacobian, phi, field, h1, negBeta_eq, mul_one, neg_mul, sub_eq_add_neg]; rfl
  | ⟨2, _⟩, ⟨2, _⟩ => simp only [jacobian, phi, field, h1, negBeta_eq, mul_one, neg_mul, sub_eq_add_neg]; rfl

/-- The velocity is the field's first three entries. -/
theorem velocity_eq (x : Fin 12 → EReal) (c : Fin 3) :
    velocity x c = field x ⟨c.val, by have := c.isLt; omega⟩ := by
  match c with
  | ⟨0, _⟩ => rfl
  | ⟨1, _⟩ => rfl
  | ⟨2, _⟩ => rfl

/-- The field applied to every row of an array of `N` rows. -/
def rowwise {N : Nat} (y : (⟨2, ![N, 12]⟩ : Shape).Idx → EReal) : (⟨2, ![N, 12]⟩ : Shape).Idx → EReal :=
  fun i => field (fun k => y (ix2 (i 0) k)) (i 1)

end Cert.Lorenz

end
-- ==== Proof.LibJoin.lean ====
/-
  Arrays joined along one axis, read at an index.

  Three shapes of joining occur when a row of twelve numbers is assembled from its entries: unit-width columns
  [R,1] set side by side into [R,K]; one-row slabs [N,1,C] stacked into [N,K,C]; and two blocks [N,A] and [N,B]
  set side by side into [N,A+B].  In each case an entry of the joined array is the entry of ONE of the pieces:
  the piece is named by the coordinate along the joined axis, and the other coordinates are kept.
-/
import Idealize.ShloMosaic.Lib.Pipeline.Value
import Idealize.ShloMosaic.Lib.ValueIdx

namespace Idealize.ShloMosaic.Join

open Idealize.ShloMosaic Idealize.ShloMosaic.ValueIdx

variable {α : Type}

/-- Columns of width one joined along the last axis of a matrix: the entry at row `p`, column `q` is the
    entry at row `p` of the `q`-th column.  The list of pieces is arbitrary; the caller shows that its `q`-th
    piece is the column `x` and that the pieces before it have total width `q`. -/
theorem cols_apply {R K : Nat} (xs : List ((s : Shape) × (s.Idx → α)))
    (h : Shape.Concatenates (xs.map (·.1)) (⟨2, ![R, K]⟩ : Shape) 1) (p : Fin R) (q : Fin K)
    (x : (⟨2, ![R, 1]⟩ : Shape).Idx → α) (hx : xs[q.val]? = some ⟨⟨2, ![R, 1]⟩, x⟩)
    (hpre : (((xs.take q.val).map (·.1)).map fun s : Shape =>
      if h : s.rank = (⟨2, ![R, K]⟩ : Shape).rank then s.size ((1 : Fin (⟨2, ![R, K]⟩ : Shape).rank).cast h.symm) else 0).sum = q.val) :
    concatenate (⟨2, ![R, K]⟩ : Shape) 1 xs h (ix2 p q) = x (ix2 p 0) := by
  obtain ⟨hq, hx'⟩ := List.getElem?_eq_some_iff.mp hx
  exact concatenate_apply_piece 1 xs h (ix2 p q) q.val hq _ x hx' rfl q.val hpre (ix2 p 0)
    (fun b hb => match b with
      | ⟨0, _⟩ => rfl
      | ⟨1, _⟩ => absurd rfl hb)
    (by show q.val + 0 = q.val; rfl)

/-- One-row slabs [N,1,C] stacked along the middle axis into [N,K,C]: the entry at `(n, i, j)` is the entry
    `(n, 0, j)` of the `i`-th slab. -/
theorem slabs_apply {N K C : Nat} (xs : List ((s : Shape) × (s.Idx → α)))
    (h : Shape.Concatenates (xs.map (·.1)) (⟨3, ![N, K, C]⟩ : Shape) 1) (n : Fin N) (i : Fin K) (j : Fin C)
    (x : (⟨3, ![N, 1, C]⟩ : Shape).Idx → α) (hx : xs[i.val]? = some ⟨⟨3, ![N, 1, C]⟩, x⟩)
    (hpre : (((xs.take i.val).map (·.1)).map fun s : Shape =>
      if h : s.rank = (⟨3, ![N, K, C]⟩ : Shape).rank then s.size ((1 : Fin (⟨3, ![N, K, C]⟩ : Shape).rank).cast h.symm) else 0).sum = i.val) :
    concatenate (⟨3, ![N, K, C]⟩ : Shape) 1 xs h (ix3 n i j) = x (ix3 n 0 j) := by
  obtain ⟨hi, hx'⟩ := List.getElem?_eq_some_iff.mp hx
  exact concatenate_apply_piece 1 xs h (ix3 n i j) i.val hi _ x hx' rfl i.val hpre (ix3 n 0 j)
    (fun b hb => match b with
      | ⟨0, _⟩ => rfl
      | ⟨1, _⟩ => absurd rfl hb
      | ⟨2, _⟩ => rfl)
    (by show i.val + 0 = i.val; rfl)

/-- Two blocks [N,A] and [N,B] set side by side: a column below `A` reads the first block at the same place. -/
theorem pair_left_apply {N A B K : Nat} (x₁ : (⟨2, ![N, A]⟩ : Shape).Idx → α) (x₂ : (⟨2, ![N, B]⟩ : Shape).Idx → α)
    (h : Shape.Concatenates [(⟨2, ![N, A]⟩ : Shape), ⟨2, ![N, B]⟩] (⟨2, ![N, K]⟩ : Shape) 1)
    (n : Fin N) (q : Fin K) (hq : q.val < A) :
    concatenate (⟨2, ![N, K]⟩ : Shape) 1 [⟨_, x₁⟩, ⟨_, x₂⟩] h (ix2 n q) = x₁ (ix2 n ⟨q.val, hq⟩) :=
  concatenate_pair_apply_left 1 x₁ x₂ h (ix2 n q) rfl (ix2 n ⟨q.val, hq⟩)
    (fun b => match b with
      | ⟨0, _⟩ => rfl
      | ⟨1, _⟩ => rfl)

/-- Two blocks [N,A] and [N,B] set side by side: a column at or past `A` reads the second block, `A` columns
    to the left. -/
theorem pair_right_apply {N A B K : Nat} (x₁ : (⟨2, ![N, A]⟩ : Shape).Idx → α) (x₂ : (⟨2, ![N, B]⟩ : Shape).Idx → α)
    (h : Shape.Concatenates [(⟨2, ![N, A]⟩ : Shape), ⟨2, ![N, B]⟩] (⟨2, ![N, K]⟩ : Shape) 1)
    (n : Fin N) (q : Fin K) (r : Fin B) (hr : r.val + A = q.val) :
    concatenate (⟨2, ![N, K]⟩ : Shape) 1 [⟨_, x₁⟩, ⟨_, x₂⟩] h (ix2 n q) = x₂ (ix2 n r) :=
  concatenate_pair_apply_right 1 x₁ x₂ h (ix2 n q) rfl rfl (ix2 n r)
    (fun b hb => match b with
      | ⟨0, _⟩ => rfl
      | ⟨1, _⟩ => absurd rfl hb)
    hr

/-- Column `c` of a matrix, cut out as a matrix of width one: its entry at row `p` is the matrix's entry `(p, c)`. -/
theorem col_apply {R K : Nat} (x : (⟨2, ![R, K]⟩ : Shape).Idx → α) (c : Nat)
    (h : (⟨2, ![R, K]⟩ : Shape).Slices ![0, c] (⟨2, ![R, 1]⟩ : Shape)) (p : Fin R) (hc : c < K) :
    extractStridedSlice (⟨2, ![R, 1]⟩ : Shape) ![0, c] x h (ix2 p 0) = x (ix2 p ⟨c, hc⟩) :=
  extractStridedSlice_apply ![0, c] x h (ix2 p 0) (ix2 p ⟨c, hc⟩)
    (fun a => match a with
      | ⟨0, _⟩ => (Nat.zero_add _).symm
      | ⟨1, _⟩ => rfl)

end Idealize.ShloMosaic.Join
-- ==== Proof.KernelRow.lean ====
/-
  What the kernel's body leaves in its output block, entry by entry.

  The body loads a block of 16000 rows of twelve numbers, cuts it into its twelve columns, computes from them the
  twelve columns of the Lorenz field with its variational part (Proof/Field.lean) by pointwise sums, differences and
  products, and joins those side by side into the block it stores.  So the stored block's entry at row `p`, column `q`
  is entry `q` of the field at row `p` of the loaded block: each column cut is the loaded block read at that column,
  each pointwise operation acts at the one index, and the join picks column `q`.
-/
import proofs.«127517_j34943853920779_2_alg».proof.Proof.Gen.KernelIdeal.Frame
import proofs.«127517_j34943853920779_2_alg».proof.Proof.LibJoin
import proofs.«127517_j34943853920779_2_alg».proof.Proof.Field
import Idealize.ShloMosaic.Lib.Pipeline.Value
import Idealize.ShloMosaic.Lib.ValueIdx

noncomputable section

namespace Cert.KernelIdeal.Row

open Cert.KernelIdeal Cert.KernelIdeal.Gen Idealize.ShloMosaic Idealize.ShloMosaic.ValueIdx Cert.Lorenz

variable (X : Vec Ideal S16000x12 .f32) (p : Fin 16000)

/-! ## The twelve columns of the loaded block -/

theorem c0_at : k0_pay6 (F := Ideal) X (ix2 p 0) = X (ix2 p 0) := Join.col_apply X 0 slices_S16000x12_o0_0_S16000x1 p (by decide)
theorem c1_at : k0_pay7 (F := Ideal) X (ix2 p 0) = X (ix2 p 1) := Join.col_apply X 1 slices_S16000x12_o0_1_S16000x1 p (by decide)
theorem c2_at : k0_pay8 (F := Ideal) X (ix2 p 0) = X (ix2 p 2) := Join.col_apply X 2 slices_S16000x12_o0_2_S16000x1 p (by decide)
theorem c3_at : k0_pay12 (F := Ideal) X (ix2 p 0) = X (ix2 p 3) := Join.col_apply X 3 slices_S16000x12_o0_3_S16000x1 p (by decide)
theorem c4_at : k0_pay13 (F := Ideal) X (ix2 p 0) = X (ix2 p 4) := Join.col_apply X 4 slices_S16000x12_o0_4_S16000x1 p (by decide)
theorem c5_at : k0_pay14 (F := Ideal) X (ix2 p 0) = X (ix2 p 5) := Join.col_apply X 5 slices_S16000x12_o0_5_S16000x1 p (by decide)
theorem c6_at : k0_pay15 (F := Ideal) X (ix2 p 0) = X (ix2 p 6) := Join.col_apply X 6 slices_S16000x12_o0_6_S16000x1 p (by decide)
theorem c7_at : k0_pay16 (F := Ideal) X (ix2 p 0) = X (ix2 p 7) := Join.col_apply X 7 slices_S16000x12_o0_7_S16000x1 p (by decide)
theorem c8_at : k0_pay17 (F := Ideal) X (ix2 p 0) = X (ix2 p 8) := Join.col_apply X 8 slices_S16000x12_o0_8_S16000x1 p (by decide)
theorem c9_at : k0_pay18 (F := Ideal) X (ix2 p 0) = X (ix2 p 9) := Join.col_apply X 9 slices_S16000x12_o0_9_S16000x1 p (by decide)
theorem c10_at : k0_pay19 (F := Ideal) X (ix2 p 0) = X (ix2 p 10) := Join.col_apply X 10 slices_S16000x12_o0_10_S16000x1 p (by decide)
theorem c11_at : k0_pay20 (F := Ideal) X (ix2 p 0) = X (ix2 p 11) := Join.col_apply X 11 slices_S16000x12_o0_11_S16000x1 p (by decide)

/-! ## The twelve computed columns -/

/-- ẋ₁ = σ (x₂ − x₁). -/
theorem f0_at : k0_pay9 (F := Ideal) X (ix2 p 0) = field (fun k => X (ix2 p k)) 0 := by
  unfold k0_pay9
  simp only [mulf_apply, subf_apply, broadcast_apply, c0_at, c1_at]
  rfl

/-- ẋ₂ = ρ x₁ − x₂ − x₁ x₃. -/
theorem f1_at : k0_pay10 (F := Ideal) X (ix2 p 0) = field (fun k => X (ix2 p k)) 1 := by
  unfold k0_pay10
  simp only [mulf_apply, subf_apply, broadcast_apply, c0_at, c1_at, c2_at]
  rfl

/-- ẋ₃ = x₁ x₂ − β x₃. -/
theorem f2_at : k0_pay11 (F := Ideal) X (ix2 p 0) = field (fun k => X (ix2 p k)) 2 := by
  unfold k0_pay11
  simp only [mulf_apply, subf_apply, broadcast_apply, c0_at, c1_at, c2_at]
  rfl

/-- Φ̇₀₀ = −σ Φ₀₀ + σ Φ₁₀. -/
theorem f3_at : k0_pay21 (F := Ideal) X (ix2 p 0) = field (fun k => X (ix2 p k)) 3 := by
  unfold k0_pay21
  simp only [mulf_apply, addf_apply, broadcast_apply, c3_at, c6_at]
  rfl

/-- Φ̇₀₁ = −σ Φ₀₁ + σ Φ₁₁. -/
theorem f4_at : k0_pay22 (F := Ideal) X (ix2 p 0) = field (fun k => X (ix2 p k)) 4 := by
  unfold k0_pay22
  simp only [mulf_apply, addf_apply, broadcast_apply, c4_at, c7_at]
  rfl

/-- Φ̇₀₂ = −σ Φ₀₂ + σ Φ₁₂. -/
theorem f5_at : k0_pay23 (F := Ideal) X (ix2 p 0) = field (fun k => X (ix2 p k)) 5 := by
  unfold k0_pay23
  simp only [mulf_apply, addf_apply, broadcast_apply, c5_at, c8_at]
  rfl

/-- Φ̇₁₀ = (ρ − x₃) Φ₀₀ − Φ₁₀ − x₁ Φ₂₀. -/
theorem f6_at : k0_pay24 (F := Ideal) X (ix2 p 0) = field (fun k => X (ix2 p k)) 6 := by
  unfold k0_pay24
  simp only [mulf_apply, subf_apply, broadcast_apply, c0_at, c2_at, c3_at, c6_at, c9_at]
  rfl

/-- Φ̇₁₁ = (ρ − x₃) Φ₀₁ − Φ₁₁ − x₁ Φ₂₁. -/
theorem f7_at : k0_pay1 (F := Ideal) (k0_pay6 X) (k0_pay8 X) (k0_pay13 X) (k0_pay16 X) (k0_pay19 X)
    (Scalar.ofBits .f32 0x41E00000#32) (ix2 p 0) = field (fun k => X (ix2 p k)) 7 := by
  unfold k0_pay1
  simp only [mulf_apply, subf_apply, broadcast_apply, c0_at, c2_at, c4_at, c7_at, c10_at]
  rfl

/-- Φ̇₁₂ = (ρ − x₃) Φ₀₂ − Φ₁₂ − x₁ Φ₂₂. -/
theorem f8_at : k0_pay2 (F := Ideal) (k0_pay6 X) (k0_pay8 X) (k0_pay14 X) (k0_pay17 X) (k0_pay20 X) (ix2 p 0)
    = field (fun k => X (ix2 p k)) 8 := by
  unfold k0_pay2
  simp only [mulf_apply, subf_apply, broadcast_apply, c0_at, c2_at, c5_at, c8_at, c11_at]
  rfl

/-- Φ̇₂₀ = x₂ Φ₀₀ + x₁ Φ₁₀ − β Φ₂₀. -/
theorem f9_at : k0_pay3 (F := Ideal) (k0_pay6 X) (k0_pay7 X) (k0_pay12 X) (k0_pay15 X) (k0_pay18 X) (ix2 p 0)
    = field (fun k => X (ix2 p k)) 9 := by
  unfold k0_pay3
  simp only [mulf_apply, subf_apply, addf_apply, broadcast_apply, c0_at, c1_at, c3_at, c6_at, c9_at]
  rfl

/-- Φ̇₂₁ = x₂ Φ₀₁ + x₁ Φ₁₁ − β Φ₂₁. -/
theorem f10_at : k0_pay4 (F := Ideal) (k0_pay6 X) (k0_pay7 X) (k0_pay13 X) (k0_pay16 X) (k0_pay19 X) (ix2 p 0)
    = field (fun k => X (ix2 p k)) 10 := by
  unfold k0_pay4
  simp only [mulf_apply, subf_apply, addf_apply, broadcast_apply, c0_at, c1_at, c4_at, c7_at, c10_at]
  rfl

/-- Φ̇₂₂ = x₂ Φ₀₂ + x₁ Φ₁₂ − β Φ₂₂, the column the join computes for itself. -/
theorem f11_at : (subf (addf (mulf (k0_pay7 (F := Ideal) X) (k0_pay14 X)) (mulf (k0_pay6 X) (k0_pay17 X)))
      (mulf (broadcast S16000x1 (Scalar.ofBits (F := Ideal) .f32 0x402AAAAB#32)) (k0_pay20 X))) (ix2 p 0)
    = field (fun k => X (ix2 p k)) 11 := by
  simp only [mulf_apply, subf_apply, addf_apply, broadcast_apply, c0_at, c1_at, c5_at, c8_at, c11_at]
  rfl

/-! ## The stored block -/

theorem origin : (![0, 0] : Fin 2 → Nat) = fun _ => 0 := funext fun a => by fin_cases a <;> rfl

/-- The stored block is the one store's payload: the twelve computed columns joined. -/
theorem out_eq : out0_1 (F := Ideal) X
    = k0_pay5 (k0_pay6 X) (k0_pay7 X) (k0_pay9 X) (k0_pay10 X) (k0_pay11 X) (k0_pay14 X) (k0_pay17 X) (k0_pay20 X)
        (k0_pay21 X) (k0_pay22 X) (k0_pay23 X) (k0_pay24 X)
        (k0_pay1 (k0_pay6 X) (k0_pay8 X) (k0_pay13 X) (k0_pay16 X) (k0_pay19 X) (Scalar.ofBits .f32 0x41E00000#32))
        (k0_pay2 (k0_pay6 X) (k0_pay8 X) (k0_pay14 X) (k0_pay17 X) (k0_pay20 X))
        (k0_pay3 (k0_pay6 X) (k0_pay7 X) (k0_pay12 X) (k0_pay15 X) (k0_pay18 X))
        (k0_pay4 (k0_pay6 X) (k0_pay7 X) (k0_pay13 X) (k0_pay16 X) (k0_pay19 X)) := by
  unfold out0_1
  rw [View.canon_unit_zero origin]
  simp only [View.ld_unit_zero (S := S16000x12) origin]

/-- Entry `(p, q)` of the stored block is entry `q` of the field at row `p` of the loaded block. -/
theorem out_apply (q : Fin 12) : out0_1 (F := Ideal) X (ix2 p q) = field (fun k => X (ix2 p k)) q := by
  rw [out_eq]
  unfold k0_pay5
  match q with
  | ⟨0, _⟩ => exact (Join.cols_apply _ _ p ⟨0, by decide⟩ _ rfl rfl).trans (f0_at X p)
  | ⟨1, _⟩ => exact (Join.cols_apply _ _ p ⟨1, by decide⟩ _ rfl rfl).trans (f1_at X p)
  | ⟨2, _⟩ => exact (Join.cols_apply _ _ p ⟨2, by decide⟩ _ rfl rfl).trans (f2_at X p)
  | ⟨3, _⟩ => exact (Join.cols_apply _ _ p ⟨3, by decide⟩ _ rfl rfl).trans (f3_at X p)
  | ⟨4, _⟩ => exact (Join.cols_apply _ _ p ⟨4, by decide⟩ _ rfl rfl).trans (f4_at X p)
  | ⟨5, _⟩ => exact (Join.cols_apply _ _ p ⟨5, by decide⟩ _ rfl rfl).trans (f5_at X p)
  | ⟨6, _⟩ => exact (Join.cols_apply _ _ p ⟨6, by decide⟩ _ rfl rfl).trans (f6_at X p)
  | ⟨7, _⟩ => exact (Join.cols_apply _ _ p ⟨7, by decide⟩ _ rfl rfl).trans (f7_at X p)
  | ⟨8, _⟩ => exact (Join.cols_apply _ _ p ⟨8, by decide⟩ _ rfl rfl).trans (f8_at X p)
  | ⟨9, _⟩ => exact (Join.cols_apply _ _ p ⟨9, by decide⟩ _ rfl rfl).trans (f9_at X p)
  | ⟨10, _⟩ => exact (Join.cols_apply _ _ p ⟨10, by decide⟩ _ rfl rfl).trans (f10_at X p)
  | ⟨11, _⟩ => exact (Join.cols_apply _ _ p ⟨11, by decide⟩ _ rfl rfl).trans (f11_at X p)

end Cert.KernelIdeal.Row

end
-- ==== Proof.KernelArray.lean ====
/-
  The kernel's result array as one function of its argument.

  The grid has 500 points; point `t` loads rows `16000 t … 16000 t + 15999` of the argument (all twelve columns) and
  writes the same rows of the result.  Its block of the result holds, entry by entry, the field of the matching row of
  the loaded block (Proof/KernelRow.lean), and that row is the argument's row `16000 t + p`; so the block written at `t`
  is block `t` of the field applied to every row of the argument.  The 500 blocks tile the result — row `r` lies in
  block `r / 16000` — so after the run the whole result is the field applied to every row of the argument.
-/
import proofs.«127517_j34943853920779_2_alg».proof.Proof.Gen.KernelIdeal.Value
import proofs.«127517_j34943853920779_2_alg».proof.Proof.KernelRow
import proofs.«127517_j34943853920779_2_alg».proof.Proof.Field
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.Lorenz
open Idealize.ShloMosaic.Pipeline (Dat)

variable (m : (ℓ : Loc nD τ sig) → Buf (Elt Ideal) ℓ) (ρ : Dev nD → PrngReg)

/-- Both windows move together: at point `t` each is at block `t` along the rows and block `0` along the columns. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- A stored block against an array `Y`: if row `p` of the loaded block `X` is row `i 0` of `Y` and `q` is the
    column `i 1`, the stored block's entry `(p, q)` is the field of `Y`'s rows at `i`. -/
theorem stored_eq (X : Vec Ideal S16000x12 .f32) (Y : S8000000x12.Idx → EReal) (p : Fin 16000) (q : Fin 12)
    (i : S8000000x12.Idx) (hq : i 1 = q) (hrow : ∀ k : Fin 12, X (ix2 p k) = Y (ix2 (i 0) k)) :
    out0_1 (F := Ideal) X (ix2 p q) = rowwise Y i := by
  rw [Row.out_apply, show (fun k => X (ix2 p k)) = fun k => Y (ix2 (i 0) k) from funext hrow, ← hq]
  rfl

/-- What point `t` writes back is block `t` of the field applied to every row of the argument. -/
theorem flushed_eq (c : Dev nD) (t : Fin cfg0.N) :
    (dats m 0 c).flushed 1 t = ((cfg0.win 1).blk t).view.read (Elt Ideal) (rowwise (V m c main_arg1)) := by
  rw [Value.flushed1]
  obtain ⟨e0, e1, e2, e3⟩ := block_index t
  funext j
  obtain ⟨p, q, rfl⟩ : ∃ (p : Fin 16000) (q : Fin 12), j = ix2 p q := ⟨j 0, j 1, eq_ix2 j⟩
  show out0_1 (iblk m c 0 t) (ix2 p q) = rowwise (V m c main_arg1) (((cfg0.win 1).blk t).view.emb (ix2 p q))
  refine stored_eq (iblk m c 0 t) (V m c main_arg1) p q _ ?_ ?_
  · apply Fin.ext
    show win0_1.index t (1 : Fin 2) * 12 + 1 * q.val = q.val
    omega
  · intro k
    show V m c main_arg1 (((cfg0.win 0).blk t).view.emb (ix2 p k)) = V m c main_arg1 (ix2 ((((cfg0.win 1).blk t).view.emb (ix2 p q)) 0) k)
    refine congrArg (V m c main_arg1) (funext fun a => Fin.ext ?_)
    match a with
    | ⟨0, _⟩ =>
      show win0_0.index t (0 : Fin 2) * 16000 + 1 * p.val = win0_1.index t (0 : Fin 2) * 16000 + 1 * p.val
      omega
    | ⟨1, _⟩ =>
      show win0_0.index t (1 : Fin 2) * 12 + 1 * k.val = k.val
      omega

/-- An index of the result lies in point `t`'s block iff each coordinate lies in the block's range. -/
theorem mem_block (t : Fin cfg0.N) (i : S8000000x12.Idx) :
    i ∈ ((cfg0.win 1).blk t).view.set ↔ ∀ a : Fin 2, win0_1.index t a * S16000x12.size a ≤ (i a).val ∧ (i a).val < win0_1.index t a * S16000x12.size a + S16000x12.size a := by
  show i ∈ ((View.whole main_v0).slice (win0_1.rect t)).set ↔ _
  rw [View.set_slice_whole, Rect.mem_set_unit]
  exact Iff.rfl

/-- The 500 blocks tile the result: row `r` is in block `r / 16000`. -/
theorem covered (i : S8000000x12.Idx) : ∃ t : Fin cfg0.N, (cfg0.win 1).flush t = true ∧ i ∈ ((cfg0.win 1).blk t).view.set := by
  have h0 : (i 0).val < 8000000 := (i 0).isLt
  have h1 : (i 1).val < 12 := (i 1).isLt
  have hN : cfg0.N = 500 := N_0
  have ht : (i 0).val / 16000 < cfg0.N := by rw [hN]; omega
  refine ⟨⟨(i 0).val / 16000, ht⟩, flush0_1 _, ?_⟩
  rw [mem_block]
  obtain ⟨-, -, e2, e3⟩ := block_index ⟨(i 0).val / 16000, ht⟩
  intro a
  match a with
  | ⟨0, _⟩ =>
    show win0_1.index ⟨(i 0).val / 16000, ht⟩ (0 : Fin 2) * 16000 ≤ (i 0).val ∧ (i 0).val < win0_1.index ⟨(i 0).val / 16000, ht⟩ (0 : Fin 2) * 16000 + 16000
    rw [e2]; show (i 0).val / 16000 * 16000 ≤ (i 0).val ∧ (i 0).val < (i 0).val / 16000 * 16000 + 16000
    omega
  | ⟨1, _⟩ =>
    show win0_1.index ⟨(i 0).val / 16000, ht⟩ (1 : Fin 2) * 12 ≤ (i 1).val ∧ (i 1).val < win0_1.index ⟨(i 0).val / 16000, ht⟩ (1 : Fin 2) * 12 + 12
    rw [e3]; omega

/-- After the run the result array is the field applied to every row of the argument. -/
theorem final (c : Dev nD) : (dats m 0 c).arrAt 1 cfg0.N = rowwise (m ((c : Thread nD τ).loc main_arg1)) :=
  (dats m 0 c).arrAt_eq_of_cover 1 (rowwise (V m c main_arg1)) (fun t _ => flushed_eq m c t) covered

/-- The kernel's run, read: the result at the field of every row of the argument, the arguments unchanged. -/
theorem run : θ_run defs (onTc (τ := τ) (main (F := Ideal))) ⟨m, fun _ => 0, ρ⟩ fun r => ∀ c : Dev nD,
      r.2.mem ((c : Thread nD τ).loc main_v0) = rowwise (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefRow.lean ====
/-
  What the reference computes, entry by entry.

  The reference cuts the first three columns x₁, x₂, x₃ out of the array as vectors, computes the three entries of
  the Lorenz velocity from them, builds the Jacobian `A` of every row as an array [N,3,3] — each of its three rows
  is three vectors set side by side, and the three rows are stacked —, reads the other nine columns as the matrix `Φ`
  of every row, [N,3,3], multiplies `A Φ` row by row (a sum over the middle index), flattens the product to nine
  columns and sets the velocity and those nine columns side by side.  Read at row `n`, column `q`, this is entry `q`
  of the field (Proof/Field.lean) at row `n` of the array: every step reads ONE entry of each operand, at an index
  fixed by the shapes, except the product, which is the sum that `jacobianPhi` spells.
-/
import proofs.«127517_j34943853920779_2_alg».proof.Proof.Gen.ReferenceIdeal.Read
import proofs.«127517_j34943853920779_2_alg».proof.Proof.LibJoin
import proofs.«127517_j34943853920779_2_alg».proof.Proof.Field
import Idealize.ShloMosaic.Lib.Pipeline.Value
import Idealize.ShloMosaic.Lib.ValueIdx

noncomputable section

namespace Cert.ReferenceIdeal.Row

open Cert.ReferenceIdeal Cert.ReferenceIdeal.Gen Cert.ReferenceIdeal.Read Idealize.ShloMosaic Idealize.ShloMosaic.ValueIdx Cert.Lorenz

variable (y : S8000000x12.Idx → EReal) (n : Fin 8000000)

/-! ## A vector as a column, a matrix as a slab -/

/-- A vector [N] laid out as a column [N,1]: the entry at row `n` is the vector's entry `n`. -/
theorem asColumn_apply (h : S8000000.BroadcastsInDim S8000000x1 (![0] : Fin 1 → Fin S8000000x1.rank))
    (v : S8000000.Idx → EReal) : broadcastInDim S8000000x1 ![0] h v (ix2 n 0) = v (ix1 n) :=
  broadcastInDim_apply _ h v (ix2 n 0) (ix1 n) (fun a => match a with
    | ⟨0, _⟩ => by show n.val = if (8000000 : Nat) = 1 then 0 else n.val; rw [if_neg (by decide)])

/-- A matrix [N,3] laid out as a slab [N,1,3]: the entry at `(n, 0, j)` is the matrix's entry `(n, j)`. -/
theorem asSlab_apply (h : S8000000x3.BroadcastsInDim S8000000x1x3 (![0, 2] : Fin 2 → Fin S8000000x1x3.rank))
    (v : S8000000x3.Idx → EReal) (j : Fin 3) : broadcastInDim S8000000x1x3 ![0, 2] h v (ix3 n 0 j) = v (ix2 n j) :=
  broadcastInDim_apply _ h v (ix3 n 0 j) (ix2 n j) (fun a => match a with
    | ⟨0, _⟩ => by show n.val = if (8000000 : Nat) = 1 then 0 else n.val; rw [if_neg (by decide)]
    | ⟨1, _⟩ => by show j.val = if (3 : Nat) = 1 then 0 else j.val; rw [if_neg (by decide)])

/-! ## The three coordinates of the point -/

theorem x1_at : val_main_v1 (F := Ideal) y (ix1 n) = y (ix2 n 0) :=
  (val_main_v1_apply (F := Ideal) y _).trans ((val_main_v0_apply (F := Ideal) y _).trans (congrArg y (funext fun a => match a with
    | ⟨0, _⟩ => Fin.ext (Nat.div_one _)
    | ⟨1, _⟩ => rfl)))

theorem x2_at : val_main_v3 (F := Ideal) y (ix1 n) = y (ix2 n 1) :=
  (val_main_v3_apply (F := Ideal) y _).trans ((val_main_v2_apply (F := Ideal) y _).trans (congrArg y (funext fun a => match a with
    | ⟨0, _⟩ => Fin.ext (Nat.div_one _)
    | ⟨1, _⟩ => rfl)))

theorem x3_at : val_main_v5 (F := Ideal) y (ix1 n) = y (ix2 n 2) :=
  (val_main_v5_apply (F := Ideal) y _).trans ((val_main_v4_apply (F := Ideal) y _).trans (congrArg y (funext fun a => match a with
    | ⟨0, _⟩ => Fin.ext (Nat.div_one _)
    | ⟨1, _⟩ => rfl)))

/-! ## The velocity -/

theorem v0_at : val_main_v8 (F := Ideal) y (ix1 n) = velocity (fun k => y (ix2 n k)) 0 := by
  simp only [val_main_v8_apply, val_main_v7_apply, val_main_cst_apply, val_main_v6_apply, x1_at, x2_at]
  rfl

theorem v1_at : val_main_v13 (F := Ideal) y (ix1 n) = velocity (fun k => y (ix2 n k)) 1 := by
  simp only [val_main_v13_apply, val_main_v12_apply, val_main_v11_apply, val_main_v10_apply, val_main_v9_apply,
    val_main_cst_0_apply, x1_at, x2_at, x3_at]
  rfl

theorem v2_at : val_main_v17 (F := Ideal) y (ix1 n) = velocity (fun k => y (ix2 n k)) 2 := by
  simp only [val_main_v17_apply, val_main_v16_apply, val_main_v15_apply, val_main_v14_apply,
    val_main_cst_1_apply, x1_at, x2_at, x3_at]
  rfl

/-- The velocity's three columns set side by side. -/
theorem velocity_at (c : Fin 3) : val_main_v21 (F := Ideal) y (ix2 n c) = velocity (fun k => y (ix2 n k)) c := by
  unfold val_main_v21
  match c with
  | ⟨0, _⟩ => exact (Join.cols_apply _ _ n ⟨0, by decide⟩ _ rfl rfl).trans ((asColumn_apply n _ _).trans (v0_at y n))
  | ⟨1, _⟩ => exact (Join.cols_apply _ _ n ⟨1, by decide⟩ _ rfl rfl).trans ((asColumn_apply n _ _).trans (v1_at y n))
  | ⟨2, _⟩ => exact (Join.cols_apply _ _ n ⟨2, by decide⟩ _ rfl rfl).trans ((asColumn_apply n _ _).trans (v2_at y n))

/-! ## The Jacobian, entry by entry -/

theorem a00_at : val_main_v25 (F := Ideal) (ix1 n) = jacobian (fun k => y (ix2 n k)) 0 0 := by
  simp only [val_main_v25_apply, val_main_v24_apply, val_main_cst_4_apply, val_main_v22_apply, val_main_cst_2_apply]
  rfl

theorem a01_at : val_main_v27 (F := Ideal) (ix1 n) = jacobian (fun k => y (ix2 n k)) 0 1 := by
  simp only [val_main_v27_apply, val_main_v26_apply, val_main_cst_5_apply, val_main_v22_apply, val_main_cst_2_apply]
  rfl

theorem a02_at : val_main_v23 (F := Ideal) (ix1 n) = jacobian (fun k => y (ix2 n k)) 0 2 := by
  simp only [val_main_v23_apply, val_main_cst_3_apply]
  rfl

theorem a10_at : val_main_v33 (F := Ideal) y (ix1 n) = jacobian (fun k => y (ix2 n k)) 1 0 := by
  simp only [val_main_v33_apply, val_main_v32_apply, val_main_cst_6_apply, x3_at]
  rfl

theorem a11_at : val_main_v34 (F := Ideal) (ix1 n) = jacobian (fun k => y (ix2 n k)) 1 1 := by
  simp only [val_main_v34_apply, val_main_v22_apply, val_main_cst_2_apply]
  rfl

theorem a12_at : val_main_v35 (F := Ideal) y (ix1 n) = jacobian (fun k => y (ix2 n k)) 1 2 := by
  simp only [val_main_v35_apply, x1_at]
  rfl

theorem a20_at : val_main_v3 (F := Ideal) y (ix1 n) = jacobian (fun k => y (ix2 n k)) 2 0 := x2_at y n

theorem a21_at : val_main_v1 (F := Ideal) y (ix1 n) = jacobian (fun k => y (ix2 n k)) 2 1 := x1_at y n

theorem a22_at : val_main_v41 (F := Ideal) (ix1 n) = jacobian (fun k => y (ix2 n k)) 2 2 := by
  simp only [val_main_v41_apply, val_main_v40_apply, val_main_cst_7_apply, val_main_v22_apply, val_main_cst_2_apply]
  rfl

/-- The Jacobian's first row, its three entries set side by side. -/
theorem row0_at (j : Fin 3) : val_main_v31 (F := Ideal) (ix2 n j) = jacobian (fun k => y (ix2 n k)) 0 j := by
  unfold val_main_v31
  match j with
  | ⟨0, _⟩ => exact (Join.cols_apply _ _ n ⟨0, by decide⟩ _ rfl rfl).trans ((asColumn_apply n _ _).trans (a00_at y n))
  | ⟨1, _⟩ => exact (Join.cols_apply _ _ n ⟨1, by decide⟩ _ rfl rfl).trans ((asColumn_apply n _ _).trans (a01_at y n))
  | ⟨2, _⟩ => exact (Join.cols_apply _ _ n ⟨2, by decide⟩ _ rfl rfl).trans ((asColumn_apply n _ _).trans (a02_at y n))

/-- The Jacobian's second row. -/
theorem row1_at (j : Fin 3) : val_main_v39 (F := Ideal) y (ix2 n j) = jacobian (fun k => y (ix2 n k)) 1 j := by
  unfold val_main_v39
  match j with
  | ⟨0, _⟩ => exact (Join.cols_apply _ _ n ⟨0, by decide⟩ _ rfl rfl).trans ((asColumn_apply n _ _).trans (a10_at y n))
  | ⟨1, _⟩ => exact (Join.cols_apply _ _ n ⟨1, by decide⟩ _ rfl rfl).trans ((asColumn_apply n _ _).trans (a11_at y n))
  | ⟨2, _⟩ => exact (Join.cols_apply _ _ n ⟨2, by decide⟩ _ rfl rfl).trans ((asColumn_apply n _ _).trans (a12_at y n))

/-- The Jacobian's third row. -/
theorem row2_at (j : Fin 3) : val_main_v45 (F := Ideal) y (ix2 n j) = jacobian (fun k => y (ix2 n k)) 2 j := by
  unfold val_main_v45
  match j with
  | ⟨0, _⟩ => exact (Join.cols_apply _ _ n ⟨0, by decide⟩ _ rfl rfl).trans ((asColumn_apply n _ _).trans (a20_at y n))
  | ⟨1, _⟩ => exact (Join.cols_apply _ _ n ⟨1, by decide⟩ _ rfl rfl).trans ((asColumn_apply n _ _).trans (a21_at y n))
  | ⟨2, _⟩ => exact (Join.cols_apply _ _ n ⟨2, by decide⟩ _ rfl rfl).trans ((asColumn_apply n _ _).trans (a22_at y n))

/-- The three rows stacked: the array of Jacobians read at `(n, i, j)`. -/
theorem jacobian_at (i j : Fin 3) : val_main_v49 (F := Ideal) y (ix3 n i j) = jacobian (fun k => y (ix2 n k)) i j := by
  unfold val_main_v49
  match i with
  | ⟨0, _⟩ => exact (Join.slabs_apply _ _ n ⟨0, by decide⟩ j _ rfl rfl).trans ((asSlab_apply n _ _ j).trans (row0_at y n j))
  | ⟨1, _⟩ => exact (Join.slabs_apply _ _ n ⟨1, by decide⟩ j _ rfl rfl).trans ((asSlab_apply n _ _ j).trans (row1_at y n j))
  | ⟨2, _⟩ => exact (Join.slabs_apply _ _ n ⟨2, by decide⟩ j _ rfl rfl).trans ((asSlab_apply n _ _ j).trans (row2_at y n j))

/-! ## The matrix Φ, the product, and the assembled row -/

/-- The last nine columns read as a 3×3 matrix per row: entry `(n, j, k)` is column `3 + 3 j + k` of row `n`. -/
theorem phi_at (j k : Fin 3) : val_main_v51 (F := Ideal) y (ix3 n j k) = phi (fun c => y (ix2 n c)) j k := by
  have hj := j.isLt
  have hk := k.isLt
  refine (val_main_v51_apply (F := Ideal) y _).trans ((val_main_v50_apply (F := Ideal) y _).trans (congrArg y (funext fun a => ?_)))
  match a with
  | ⟨0, _⟩ => exact Fin.ext (by show ((n.val * 3 + j.val) * 3 + k.val) / 9 = n.val; omega)
  | ⟨1, _⟩ => exact Fin.ext (by show 3 + ((n.val * 3 + j.val) * 3 + k.val) % 9 = 3 + (3 * j.val + k.val); omega)

/-- The product of the two arrays of matrices, row by row: entry `(n, i, k)` is entry `(i, k)` of `A Φ` at row `n`. -/
theorem product_at (i k : Fin 3) : val_main_v52 (F := Ideal) y (ix3 n i k) = jacobianPhi (fun c => y (ix2 n c)) i k := by
  rw [val_main_v52_apply]
  unfold jacobianPhi
  refine Finset.sum_congr rfl fun j _ => ?_
  have el : lidx_main_v52 (ix3 n i k) j = ix3 n i j := funext fun a => match a with
    | ⟨0, _⟩ => rfl
    | ⟨1, _⟩ => rfl
    | ⟨2, _⟩ => rfl
  have er : ridx_main_v52 (ix3 n i k) j = ix3 n j k := funext fun a => match a with
    | ⟨0, _⟩ => rfl
    | ⟨1, _⟩ => rfl
    | ⟨2, _⟩ => rfl
  rw [el, er, jacobian_at, phi_at]

/-- The product flattened to nine columns: column `3 i + k` of row `n` is entry `(i, k)` of `A Φ`. -/
theorem flat_at (i k : Fin 3) (h : 3 * i.val + k.val < 9) :
    val_main_v53 (F := Ideal) y (ix2 n ⟨3 * i.val + k.val, h⟩) = jacobianPhi (fun c => y (ix2 n c)) i k := by
  have hi := i.isLt
  have hk := k.isLt
  refine (val_main_v53_apply (F := Ideal) y _).trans (Eq.trans (congrArg (val_main_v52 (F := Ideal) y) (funext fun a => ?_)) (product_at y n i k))
  match a with
  | ⟨0, _⟩ => exact Fin.ext (by show (n.val * 9 + (3 * i.val + k.val)) / 9 = n.val; omega)
  | ⟨1, _⟩ => exact Fin.ext (by show (n.val * 9 + (3 * i.val + k.val)) / 3 % 3 = i.val; omega)
  | ⟨2, _⟩ => exact Fin.ext (by show (n.val * 9 + (3 * i.val + k.val)) % 3 = k.val; omega)

/-- The reference's result at row `n`, column `q`: entry `q` of the field at row `n`. -/
theorem result_apply (q : Fin 12) : val_main_v54 (F := Ideal) y (ix2 n q) = field (fun k => y (ix2 n k)) q := by
  have hq := q.isLt
  unfold val_main_v54
  by_cases h3 : q.val < 3
  · refine (Join.pair_left_apply _ _ _ n q h3).trans ((velocity_at y n ⟨q.val, h3⟩).trans ?_)
    exact velocity_eq _ _
  · have hi : (q.val - 3) / 3 < 3 := by omega
    have hk : (q.val - 3) % 3 < 3 := by omega
    have hr : 3 * (⟨(q.val - 3) / 3, hi⟩ : Fin 3).val + (⟨(q.val - 3) % 3, hk⟩ : Fin 3).val < 9 := by
      show 3 * ((q.val - 3) / 3) + (q.val - 3) % 3 < 9; omega
    refine (Join.pair_right_apply _ _ _ n q ⟨3 * (⟨(q.val - 3) / 3, hi⟩ : Fin 3).val + (⟨(q.val - 3) % 3, hk⟩ : Fin 3).val, hr⟩
      (by show 3 * ((q.val - 3) / 3) + (q.val - 3) % 3 + 3 = q.val; omega)).trans ?_
    refine (flat_at y n ⟨(q.val - 3) / 3, hi⟩ ⟨(q.val - 3) % 3, hk⟩ hr).trans ((jacobianPhi_eq _ _ _).trans ?_)
    exact congrArg (field fun k => y (ix2 n k)) (Fin.ext (by show 3 + (3 * ((q.val - 3) / 3) + (q.val - 3) % 3) = q.val; omega))

/-- The reference's result is the field applied to every row. -/
theorem result_eq : val_main_v54 (F := Ideal) y = rowwise y :=
  funext fun i => (congrArg (val_main_v54 (F := Ideal) y) (eq_ix2 i)).trans (result_apply y (i 0) (i 1))

end Cert.ReferenceIdeal.Row

end
-- ==== Proof.lean ====
/-
  A blocked kernel for the Lorenz system with its variational equation against its whole-array reference, over the
  extended reals.

  Both programs take an array of 8,000,000 rows of twelve numbers — a point (x₁, x₂, x₃) of the Lorenz system and a
  3×3 matrix Φ in row-major order — and return, row by row, the velocity (ẋ₁, ẋ₂, ẋ₃) and Φ̇ = A Φ, where A is the
  Jacobian of the Lorenz right-hand side at the point (Proof/Field.lean).  The kernel works on blocks of 16,000 rows,
  writes the nine entries of A Φ out as sums and differences of products and joins the twelve computed columns; the
  reference builds A for every row, with its constant entries as products with one and a zero entry, and multiplies
  the matrices.  Entry by entry the two are the same function of the row on ALL extended reals (Proof/Field.lean,
  `jacobianPhi_eq`): the laws that join them — a zero factor, a unit factor, a sign moved out of a product, a
  subtraction as the sum with the negative, the order of a sum — hold at the infinities too, so the precondition is
  never opened.

  The three frames are the generated ones (the reference's is its run with the result dropped); nothing was rewritten
  between the kernel and its idealization, so `preserves` is `True`; `algebraic` sets the kernel's run
  (Proof/KernelArray.lean: the result array is the field applied to every row of the argument) beside the reference's
  (Proof/RefRow.lean: so is the reference's result).
-/
import proofs.«127517_j34943853920779_2_alg».proof.Defs
import proofs.«127517_j34943853920779_2_alg».proof.Proof.Gen.Kernel
import proofs.«127517_j34943853920779_2_alg».proof.Proof.Gen.Kernel.Frame
import proofs.«127517_j34943853920779_2_alg».proof.Proof.Gen.KernelIdeal
import proofs.«127517_j34943853920779_2_alg».proof.Proof.Gen.KernelIdeal.Frame
import proofs.«127517_j34943853920779_2_alg».proof.Proof.Gen.KernelIdeal.Value
import proofs.«127517_j34943853920779_2_alg».proof.Proof.Gen.ReferenceIdeal
import proofs.«127517_j34943853920779_2_alg».proof.Proof.Gen.ReferenceIdeal.Run
import proofs.«127517_j34943853920779_2_alg».proof.Proof.Gen.ReferenceIdeal.Read
import proofs.«127517_j34943853920779_2_alg».proof.Proof.Gen.Pre_finite_inputs
import proofs.«127517_j34943853920779_2_alg».proof.Proof.Field
import proofs.«127517_j34943853920779_2_alg».proof.Proof.KernelArray
import proofs.«127517_j34943853920779_2_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the field applied to every row of the
    second argument. -/
theorem algebraic : Cert.algebraic_KernelIdeal_ReferenceIdeal := by
  intro m ρ m' ρ' _ hagree
  refine ⟨fun c => Cert.Lorenz.rowwise (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.Row.result_eq, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
